-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  The radial-basis-function kernel matrix of two families of rows, as one function of the two arrays.

  For rows `x r` and `y s` of length 64 the matrix entry at `(r, s)` is
  `exp (-(‖x r‖² + ‖y s‖² - 2 ⟨x r, y s⟩)⁺)`, the squared distance of the two rows expanded into the two squared
  norms and the inner product, clamped below at zero, negated and exponentiated. Everything is read on the extended
  reals, and each sum over the row's 64 coordinates is a finite sum there. The three float literals (`-1`, `2`, `0`)
  are kept as the words the programs write: both programs write the same words at the same places, so what the words
  denote is never needed. For the same reason the squared norm keeps the start value the row reduction adds to its sum.
-/
import Idealize.ShloMosaic.PureOps.Ideal
import Idealize.ShloMosaic.Lib.ValueIdx

noncomputable section

open scoped BigOperators

namespace Cert.Rbf

open Idealize.ShloMosaic Idealize.ShloMosaic.ValueIdx

/-- One entry from its three ingredients: the two squared norms `a`, `b` and the inner product `g` give
    `exp ((-1) · max ((a + b) - 2 · g) 0)`, with the grouping both programs use. -/
def cell (a b g : EReal) : EReal :=
  Ideal.exp (Ideal.ofBits .f32 0xBF800000#32
    * max ((a + b) - Ideal.ofBits .f32 0x40000000#32 * g) (Ideal.ofBits .f32 0x00000000#32))

/-- The squared norm of row `r`: the reduction's start value plus the sum of the squares of the row's entries. -/
def sqNorm (x : (⟨2, ![8192, 64]⟩ : Shape).Idx → EReal) (r : Fin 8192) : EReal :=
  Ideal.ofBits .f32 0x00000000#32 + ∑ d : Fin 64, x (ix2 r d) * x (ix2 r d)

/-- The inner product of row `r` of `x` with row `s` of `y`. -/
def inner (x y : (⟨2, ![8192, 64]⟩ : Shape).Idx → EReal) (r s : Fin 8192) : EReal :=
  ∑ d : Fin 64, x (ix2 r d) * y (ix2 s d)

/-- The kernel matrix's entry at row `r`, column `s`. -/
def entry (x y : (⟨2, ![8192, 64]⟩ : Shape).Idx → EReal) (r s : Fin 8192) : EReal :=
  cell (sqNorm x r) (sqNorm y s) (inner x y r s)

/-- The whole kernel matrix, index by index. -/
def rbf (x y : (⟨2, ![8192, 64]⟩ : Shape).Idx → EReal) : (⟨2, ![8192, 8192]⟩ : Shape).Idx → EReal :=
  fun i => entry x y (i 0) (i 1)

/-- At an index given by its two coordinates the matrix is the entry of those coordinates. -/
theorem rbf_ix2 (x y : (⟨2, ![8192, 64]⟩ : Shape).Idx → EReal) (r s : Fin 8192) :
    rbf x y (ix2 r s) = entry x y r s := rfl

end Cert.Rbf

end
-- ==== Proof.RefIsRbf.lean ====
/-
  The reference computes the kernel matrix.

  Read one operation at a time, the reference's result at `(r, s)` is the exponential of `-1` times the maximum with
  `0` of (the squared norm of row `r` of its first argument, broadcast along the columns, plus the squared norm of row
  `s` of its second argument, broadcast along the rows) minus `2` times the contraction of the two rows over their 64
  coordinates. Each broadcast reads the vector of norms at the one coordinate it keeps, each row reduction is its
  start value plus the sum over the row, and the contraction is the sum of products: that is `Cert.Rbf.entry`.
-/
import proofs.«171659_j65481071396156_2_alg».proof.Proof.Gen.ReferenceIdeal.Read
import proofs.«171659_j65481071396156_2_alg».proof.Proof.Spec

noncomputable section

open scoped BigOperators

namespace Cert.Rbf.Ref

open Idealize.ShloMosaic Idealize.ShloMosaic.ValueIdx Cert.ReferenceIdeal Cert.ReferenceIdeal.Read

/-- The row a squared norm of the first argument sums over, reached through the two broadcasts: row `r`. -/
theorem row_of_first (r s : Fin 8192) (k : Fin 64) :
    idx_main_v1 (idx_main_v5 (idx_main_v7 (ix2 r s))) k = ix2 r k :=
  funext fun a => Fin.ext (by match a with | ⟨0, _⟩ => rfl | ⟨1, _⟩ => rfl)

/-- The row a squared norm of the second argument sums over, reached through the two broadcasts: row `s`. -/
theorem row_of_second (r s : Fin 8192) (k : Fin 64) :
    idx_main_v3 (idx_main_v6 (idx_main_v8 (ix2 r s))) k = ix2 s k :=
  funext fun a => Fin.ext (by match a with | ⟨0, _⟩ => rfl | ⟨1, _⟩ => rfl)

/-- The contraction's left factor at `(r, s)` and coordinate `k` is the first argument at `(r, k)`. -/
theorem left_of_contraction (r s : Fin 8192) (k : Fin 64) : lidx_main_v4 (ix2 r s) k = ix2 r k :=
  funext fun a => Fin.ext (by match a with | ⟨0, _⟩ => rfl | ⟨1, _⟩ => rfl)

/-- The contraction's right factor at `(r, s)` and coordinate `k` is the second argument at `(s, k)`. -/
theorem right_of_contraction (r s : Fin 8192) (k : Fin 64) : ridx_main_v4 (ix2 r s) k = ix2 s k :=
  funext fun a => Fin.ext (by match a with | ⟨0, _⟩ => rfl | ⟨1, _⟩ => rfl)

/-- THE REFERENCE IS THE KERNEL MATRIX: its last stage, as a function of its two arguments, is `Cert.Rbf.rbf`. -/
theorem reference_eq (x0 x1 : (⟨S8192x64, .f32⟩ : BufTy).Contents (Elt Ideal)) :
    val_main_v17 (F := Ideal) x0 x1 = Cert.Rbf.rbf x0 x1 := by
  funext i
  obtain ⟨r, s, rfl⟩ : ∃ (r s : Fin 8192), i = ix2 r s := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_cst_apply, val_main_v8_apply, val_main_v6_apply, val_main_v3_apply,
    val_main_cst_0_apply]
  simp only [val_main_v0_apply, val_main_v2_apply, row_of_first, row_of_second, left_of_contraction,
    right_of_contraction, Ideal.hostUnary_exp_def, Ideal.mulf_def, Ideal.addf_def, Ideal.subf_def,
    Ideal.maximumf_def, Ideal.ofBits_def]
  rfl

end Cert.Rbf.Ref

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.BodyEntry.lean ====
/-
  What the kernel body stores, entry by entry.

  The body receives a block of 1024 rows of the first argument, a block of 1024 rows of the second, the column of the
  first block's squared norms (1024 × 1) and the row of the second block's squared norms (1 × 1024). It contracts the
  two row blocks over their 64 coordinates into a 1024 × 1024 matrix of inner products, broadcasts the column along
  the columns and the row along the rows, and stores `exp ((-1) · max ((column + row) - 2 · product) 0)`. At the entry
  `(p, q)` of the block that is `Cert.Rbf.cell` of the column at `p`, the row at `q` and the inner product of row `p`
  of the first block with row `q` of the second.
-/
import proofs.«171659_j65481071396156_2_alg».proof.Proof.Gen.KernelIdeal.Skeleton
import proofs.«171659_j65481071396156_2_alg».proof.Proof.Spec
import proofs.«171659_j65481071396156_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Body

open Idealize.ShloMosaic Idealize.ShloMosaic.ValueIdx Cert.KernelIdeal Cert.KernelIdeal.Gen

/-! ## The contraction of two row blocks -/

/-- The left operand's row coordinate is the output's row coordinate … -/
theorem lhs_row (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
/-- … and its column coordinate the contracted one. -/
theorem lhs_col (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The right operand's row coordinate is the output's COLUMN coordinate (both blocks are contracted along their
    columns: no transposed copy) … -/
theorem rhs_row (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
/-- … and its column coordinate the contracted one. -/
theorem rhs_col (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The matrix product into a zero accumulator, at `(p, q)`: the inner product of row `p` of the left block with row
    `q` of the right block, a sum over the 64 coordinates. -/
theorem gram_apply (v0 v1 : FVec Ideal S1024x64 .f32) (p q : Fin 1024) :
    matmul dot_S1024x64_S1024x64_S1024x1024_1_1_0_0_n_n (some .fp32) v0 v1 (constant (F := Ideal) S1024x1024 .f32 0x00000000#32) (ix2 p q)
      = ∑ k : Fin 64, v0 (ix2 p k) * v1 (ix2 q k) := by
  simp only [matmul]
  rw [Ideal.matmul_constant_zero_apply,
    ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k :=
    funext fun a => Fin.ext (by
      match a with
      | ⟨0, _⟩ => exact lhs_row _ _
      | ⟨1, _⟩ => exact (lhs_col _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k :=
    funext fun a => Fin.ext (by
      match a with
      | ⟨0, _⟩ => exact rhs_row _ _
      | ⟨1, _⟩ => exact (rhs_col _ _).trans hk)
  rw [el, er]

/-! ## The two broadcasts -/

/-- The column of squared norms, broadcast along the columns, reads at `(p, q)` the column at `p`. -/
theorem column_apply (v2 : FVec Ideal S1024x1 .f32) (p q : Fin 1024) :
    broadcastTo S1024x1024 (shapeCast S1024x1 v2 shapeCasts_S1024x1_S1024x1) broadcasts_S1024x1_S1024x1024 (ix2 p q)
      = v2 (ix2 p (0 : Fin 1)) := by
  rw [shapeCast_self]
  exact Cert.LibKeepdims.broadcastTo_a1_ab_apply v2 broadcasts_S1024x1_S1024x1024 p q

/-- The row of squared norms, broadcast along the rows, reads at `(p, q)` the row at `q`. -/
theorem row_apply (v4 : FVec Ideal S1x1024 .f32) (p q : Fin 1024) :
    broadcastTo S1024x1024 (shapeCast S1x1024 v4 shapeCasts_S1x1024_S1x1024) broadcasts_S1x1024_S1024x1024 (ix2 p q)
      = v4 (ix2 (0 : Fin 1) q) := by
  rw [shapeCast_self]
  exact broadcastTo_1b_ab_apply v4 broadcasts_S1x1024_S1024x1024 p q

/-! ## The stored value -/

/-- THE BODY'S STORED VALUE AT `(p, q)`: `cell` of the column at `p`, the row at `q` and the inner product of the two
    blocks' rows `p` and `q`. -/
theorem stored_apply (v0 v1 : FVec Ideal S1024x64 .f32) (v2 : FVec Ideal S1024x1 .f32) (v4 : FVec Ideal S1x1024 .f32)
    (p q : Fin 1024) :
    k0_pay1 (F := Ideal) v0 v1 v2 v4 (ix2 p q)
      = Cert.Rbf.cell (v2 (ix2 p (0 : Fin 1))) (v4 (ix2 (0 : Fin 1) q)) (∑ k : Fin 64, v0 (ix2 p k) * v1 (ix2 q k)) := by
  unfold k0_pay1 Cert.Rbf.cell
  show Ideal.exp (Ideal.ofBits .f32 0xBF800000#32
      * max ((broadcastTo S1024x1024 (shapeCast S1024x1 v2 shapeCasts_S1024x1_S1024x1) broadcasts_S1024x1_S1024x1024 (ix2 p q)
            + broadcastTo S1024x1024 (shapeCast S1x1024 v4 shapeCasts_S1x1024_S1x1024) broadcasts_S1x1024_S1024x1024 (ix2 p q))
          - Ideal.ofBits .f32 0x40000000#32
            * matmul dot_S1024x64_S1024x64_S1024x1024_1_1_0_0_n_n (some .fp32) v0 v1 (constant (F := Ideal) S1024x1024 .f32 0x00000000#32) (ix2 p q))
        (Ideal.ofBits .f32 0x00000000#32)) = _
  rw [column_apply, row_apply, gram_apply]

end Cert.Rbf.Body

end
-- ==== Proof.NormArrays.lean ====
/-
  The two arrays of squared norms the kernel's host operations prepare before the region.

  Before the pallas_call the program squares each argument entrywise, sums every row (from the start value `0`),
  and keeps the reduced axis as a unit axis: the first argument's norms become a column (8192 × 1); the second
  argument's norms become a column too and are then transposed into a row (1 × 8192). Read at an index, the column at
  `(r, ·)` and the row at `(·, s)` are the squared norms `Cert.Rbf.sqNorm` of rows `r` and `s`.
-/
import proofs.«171659_j65481071396156_2_alg».proof.Proof.Gen.KernelIdeal.Frame
import proofs.«171659_j65481071396156_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Norms

open Idealize.ShloMosaic Idealize.ShloMosaic.TcCoe Idealize.ShloMosaic.ValueIdx Idealize.SL.Sem
open Cert.KernelIdeal Cert.KernelIdeal.Gen

/-! ## The operations, read at an index -/

/-- The row sums of the entrywise square, kept as a column: at `(r, u)` the squared norm of row `r`. -/
theorem column_of_norms_apply (a : FVec Ideal S8192x64 .f32) (r : Fin 8192) (u : Fin 1) :
    broadcastInDim S8192x1 ![0] bcast_S8192_S8192x1_0
        (Host.reduceAdd (F := Ideal) (mulf a a) (constant (F := Ideal) S_ .f32 0x00000000#32)
          reducesTo_S8192x64_S8192_d1 h_S_) (ix2 r u)
      = Cert.Rbf.sqNorm a r := by
  refine (broadcastInDim_apply _ bcast_S8192_S8192x1_0 _ (ix2 r u) (ix1 r) (fun ax => match ax with
    | ⟨0, _⟩ => by show r.val = if (8192 : Nat) = 1 then 0 else r.val; rw [if_neg (by decide)])).trans ?_
  simp only [Host.reduceAdd, Ideal.hostReduceAdd_def]
  rw [Ideal.hostReduceAdd_single reducesTo_S8192x64_S8192_d1 (by decide)]
  unfold Cert.Rbf.sqNorm
  show Ideal.ofBits .f32 0x00000000#32 + _ = _
  refine congrArg (Ideal.ofBits .f32 0x00000000#32 + ·) (Finset.sum_congr rfl fun k _ => ?_)
  exact congrArg (fun j => a j * a j)
    (funext fun ax => Fin.ext (by match ax with | ⟨0, _⟩ => rfl | ⟨1, _⟩ => rfl))

/-- The same column transposed into a row: at `(u, s)` the squared norm of row `s`. -/
theorem row_of_norms_apply (a : FVec Ideal S8192x64 .f32) (u : Fin 1) (s : Fin 8192) :
    transpose S1x8192 [1, 0]
        (broadcastInDim S8192x1 ![0] bcast_S8192_S8192x1_0
          (Host.reduceAdd (F := Ideal) (mulf a a) (constant (F := Ideal) S_ .f32 0x00000000#32)
            reducesTo_S8192x64_S8192_d1 h_S_))
        transposes_S8192x1_S1x8192_1_0 (ix2 u s)
      = Cert.Rbf.sqNorm a s :=
  (transpose_ix2_apply _ transposes_S8192x1_S1x8192_1_0 u s).trans (column_of_norms_apply a s u)

/-! ## The arrays as the region finds them -/

variable (m : (ℓ : Loc nD τ sig) → Buf (Elt Ideal) ℓ)

/-- The third operand's array when the region is entered: the column of the first argument's squared norms. -/
theorem column_array (c : Dev nD) :
    (V m c main_v2 : S8192x1.Idx → EReal)
      = broadcastInDim S8192x1 ![0] bcast_S8192_S8192x1_0
          (Host.reduceAdd (F := Ideal) (mulf (m ((c : Thread nD τ).loc main_arg0)) (m ((c : Thread nD τ).loc main_arg0)))
            (constant (F := Ideal) S_ .f32 0x00000000#32) reducesTo_S8192x64_S8192_d1 h_S_) := by
  dsimp only [Gen.V, Gen.hostOps0]; after_results

/-- The fourth operand's array when the region is entered: the row of the second argument's squared norms. -/
theorem row_array (c : Dev nD) :
    (V m c main_v6 : S1x8192.Idx → EReal)
      = transpose S1x8192 [1, 0]
          (broadcastInDim S8192x1 ![0] bcast_S8192_S8192x1_0
            (Host.reduceAdd (F := Ideal) (mulf (m ((c : Thread nD τ).loc main_arg1)) (m ((c : Thread nD τ).loc main_arg1)))
              (constant (F := Ideal) S_ .f32 0x00000000#32) reducesTo_S8192x64_S8192_d1 h_S_))
          transposes_S8192x1_S1x8192_1_0 := by
  dsimp only [Gen.V, Gen.hostOps0]; after_results

/-- The column array at `(r, u)`: the squared norm of row `r` of the first argument. -/
theorem column_array_apply (c : Dev nD) (r : Fin 8192) (u : Fin 1) :
    V m c main_v2 (ix2 r u) = Cert.Rbf.sqNorm (m ((c : Thread nD τ).loc main_arg0)) r := by
  rw [column_array m c]
  exact column_of_norms_apply _ r u

/-- The row array at `(u, s)`: the squared norm of row `s` of the second argument. -/
theorem row_array_apply (c : Dev nD) (u : Fin 1) (s : Fin 8192) :
    V m c main_v6 (ix2 u s) = Cert.Rbf.sqNorm (m ((c : Thread nD τ).loc main_arg1)) s := by
  rw [row_array m c]
  exact row_of_norms_apply _ u s

end Cert.Rbf.Norms

end
-- ==== Proof.KernelIsRbf.lean ====
/-
  The kernel computes the kernel matrix.

  The grid is 8 × 8. At the point with block coordinates `(bi, bj)` the pipeline hands the body rows
  `1024·bi … 1024·bi + 1023` of the first argument, rows `1024·bj … 1024·bj + 1023` of the second, the matching 1024
  entries of the column of the first argument's squared norms and of the row of the second's, and writes the body's
  1024 × 1024 result back as block `(bi, bj)` of the output. So entry `(p, q)` of that block is computed from row
  `R = 1024·bi + p` of the first argument and row `S = 1024·bj + q` of the second, and by the body's formula it is the
  kernel matrix's entry `(R, S)`. The 64 blocks tile the 8192 × 8192 output, so after the run the output array is the
  kernel matrix of the two arguments.
-/
import proofs.«171659_j65481071396156_2_alg».proof.Proof.Gen.KernelIdeal.Value
import proofs.«171659_j65481071396156_2_alg».proof.Proof.Spec
import proofs.«171659_j65481071396156_2_alg».proof.Proof.BodyEntry
import proofs.«171659_j65481071396156_2_alg».proof.Proof.NormArrays
import Idealize.ShloMosaic.Lib.ValueIdx
import Idealize.ShloMosaic.Lib.Pipeline.Value

set_option maxRecDepth 16384

noncomputable section

open scoped BigOperators

namespace Cert.Rbf.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The whole-block rectangle's offsets are zero. -/
theorem offsets_zero : (![0, 0] : Fin 2 → Nat) = fun _ => 0 := funext fun a => by fin_cases a <;> rfl

/-! ## How the five windows move over the grid -/

/-- Decided over the 64 points: the first argument's and the column's blocks follow the output's block ROW, the
    second argument's and the row's blocks follow the output's block COLUMN, every other block coordinate is `0`,
    and the output's block coordinates stay below 8. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 output blocks is some point's. -/
theorem every_block : ∀ (b0 b1 : Fin 8), ∃ t : Fin cfg0.N, win0_4.index t = ![b0.val, b1.val] :=
  (by decide +kernel : ∀ (b0 b1 : Fin 8), ∃ t : Fin grid0.N, win0_4.index t = ![b0.val, b1.val])

/-! ## The four input blocks, read where the output block's entry says -/

/-- The first argument's block at point `t`, entry `(p, k)`: the argument at `(R, k)`, `R` the row under the output
    block's row `p`. -/
theorem first_block (c : Dev nD) (t : Fin cfg0.N) (p : Fin 1024) (k : Fin 64) (R : Fin 8192)
    (hR : R.val = win0_4.index t (0 : Fin 2) * 1024 + p.val) :
    iblk m c 0 t (ix2 p k) = m ((c : Thread nD τ).loc main_arg0) (ix2 R k) := by
  obtain ⟨e0, e1, -⟩ := block_indices t
  rw [← V_main_arg0 m c]
  show V m c main_arg0 (((cfg0.win 0).blk t).view.emb (ix2 p k)) = V m c main_arg0 (ix2 R k)
  refine congrArg (V m c main_arg0) (funext fun a => Fin.ext ?_)
  match a with
  | ⟨0, _⟩ => show win0_0.index t (0 : Fin 2) * 1024 + 1 * p.val = R.val; omega
  | ⟨1, _⟩ => show win0_0.index t (1 : Fin 2) * 64 + 1 * k.val = k.val; omega

/-- The second argument's block at point `t`, entry `(q, k)`: the argument at `(S, k)`, `S` the column under the
    output block's column `q`. -/
theorem second_block (c : Dev nD) (t : Fin cfg0.N) (q : Fin 1024) (k : Fin 64) (S : Fin 8192)
    (hS : S.val = win0_4.index t (1 : Fin 2) * 1024 + q.val) :
    iblk m c 1 t (ix2 q k) = m ((c : Thread nD τ).loc main_arg1) (ix2 S k) := by
  obtain ⟨-, -, e0, e1, -⟩ := block_indices t
  rw [← V_main_arg1 m c]
  show V m c main_arg1 (((cfg0.win 1).blk t).view.emb (ix2 q k)) = V m c main_arg1 (ix2 S k)
  refine congrArg (V m c main_arg1) (funext fun a => Fin.ext ?_)
  match a with
  | ⟨0, _⟩ => show win0_1.index t (0 : Fin 2) * 1024 + 1 * q.val = S.val; omega
  | ⟨1, _⟩ => show win0_1.index t (1 : Fin 2) * 64 + 1 * k.val = k.val; omega

/-- The column block at point `t`, entry `(p, ·)`: the squared norm of row `R` of the first argument. -/
theorem column_block (c : Dev nD) (t : Fin cfg0.N) (p : Fin 1024) (R : Fin 8192)
    (hR : R.val = win0_4.index t (0 : Fin 2) * 1024 + p.val) :
    iblk m c 2 t (ix2 p (0 : Fin 1)) = Cert.Rbf.sqNorm (m ((c : Thread nD τ).loc main_arg0)) R := by
  obtain ⟨-, -, -, -, e0, e1, -⟩ := block_indices t
  rw [← Cert.Rbf.Norms.column_array_apply m c R (0 : Fin 1)]
  show V m c main_v2 (((cfg0.win 2).blk t).view.emb (ix2 p (0 : Fin 1))) = V m c main_v2 (ix2 R (0 : Fin 1))
  refine congrArg (V m c main_v2) (funext fun a => Fin.ext ?_)
  match a with
  | ⟨0, _⟩ => show win0_2.index t (0 : Fin 2) * 1024 + 1 * p.val = R.val; omega
  | ⟨1, _⟩ => show win0_2.index t (1 : Fin 2) * 1 + 1 * 0 = 0; omega

/-- The row block at point `t`, entry `(·, q)`: the squared norm of row `S` of the second argument. -/
theorem row_block (c : Dev nD) (t : Fin cfg0.N) (q : Fin 1024) (S : Fin 8192)
    (hS : S.val = win0_4.index t (1 : Fin 2) * 1024 + q.val) :
    iblk m c 3 t (ix2 (0 : Fin 1) q) = Cert.Rbf.sqNorm (m ((c : Thread nD τ).loc main_arg1)) S := by
  obtain ⟨-, -, -, -, -, -, e0, e1, -⟩ := block_indices t
  rw [← Cert.Rbf.Norms.row_array_apply m c (0 : Fin 1) S]
  show V m c main_v6 (((cfg0.win 3).blk t).view.emb (ix2 (0 : Fin 1) q)) = V m c main_v6 (ix2 (0 : Fin 1) S)
  refine congrArg (V m c main_v6) (funext fun a => Fin.ext ?_)
  match a with
  | ⟨0, _⟩ => show win0_3.index t (0 : Fin 2) * 1 + 1 * 0 = 0; omega
  | ⟨1, _⟩ => show win0_3.index t (1 : Fin 2) * 1024 + 1 * q.val = S.val; omega

/-! ## What a point writes back -/

/-- WHAT POINT `t` WRITES BACK is block `t` of the kernel matrix of the two arguments. -/
theorem written_back (c : Dev nD) (t : Fin cfg0.N) :
    (dats m 0 c).flushed 4 t
      = ((cfg0.win 4).blk t).view.read (Elt Ideal)
          (Cert.Rbf.rbf (m ((c : Thread nD τ).loc main_arg0)) (m ((c : Thread nD τ).loc main_arg1))) := by
  rw [Cert.KernelIdeal.Value.flushed4]
  unfold out0_4
  rw [View.canon_unit_zero offsets_zero]
  simp only [View.ld_unit_zero (S := S1024x64) offsets_zero, View.ld_unit_zero (S := S1024x1) offsets_zero,
    View.ld_unit_zero (S := S1x1024) offsets_zero]
  obtain ⟨-, -, -, -, -, -, -, -, b0, b1⟩ := block_indices t
  funext j
  obtain ⟨p, q, rfl⟩ : ∃ (p q : Fin 1024), j = ix2 p q := ⟨j 0, j 1, eq_ix2 j⟩
  obtain ⟨R, hR⟩ : ∃ R : Fin 8192, R.val = win0_4.index t (0 : Fin 2) * 1024 + p.val :=
    ⟨⟨win0_4.index t (0 : Fin 2) * 1024 + p.val, by have := p.isLt; omega⟩, rfl⟩
  obtain ⟨S, hS⟩ : ∃ S : Fin 8192, S.val = win0_4.index t (1 : Fin 2) * 1024 + q.val :=
    ⟨⟨win0_4.index t (1 : Fin 2) * 1024 + q.val, by have := q.isLt; omega⟩, rfl⟩
  have hE : ((cfg0.win 4).blk t).view.emb (ix2 p q) = ix2 R S := by
    funext a; apply Fin.ext
    match a with
    | ⟨0, _⟩ => show win0_4.index t (0 : Fin 2) * 1024 + 1 * p.val = R.val; omega
    | ⟨1, _⟩ => show win0_4.index t (1 : Fin 2) * 1024 + 1 * q.val = S.val; omega
  show k0_pay1 (F := Ideal) (iblk m c 0 t) (iblk m c 1 t) (iblk m c 2 t) (iblk m c 3 t) (ix2 p q)
    = Cert.Rbf.rbf (m ((c : Thread nD τ).loc main_arg0)) (m ((c : Thread nD τ).loc main_arg1))
        (((cfg0.win 4).blk t).view.emb (ix2 p q))
  rw [hE, Cert.Rbf.rbf_ix2]
  refine (Cert.Rbf.Body.stored_apply (iblk m c 0 t) (iblk m c 1 t) (iblk m c 2 t) (iblk m c 3 t) p q).trans ?_
  unfold Cert.Rbf.entry Cert.Rbf.inner
  rw [column_block m c t p R hR, row_block m c t q S hS]
  refine congrArg (Cert.Rbf.cell _ _) (Finset.sum_congr rfl fun k _ => ?_)
  rw [first_block m c t p k R hR, second_block m c t q k S hS]

/-! ## The blocks tile the output -/

/-- An index of the output is in point `t`'s block iff each coordinate is in the block's range on its axis. -/
theorem mem_block (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v7).slice (win0_4.rect t)).set ↔ _
  rw [View.set_slice_whole, Rect.mem_set_unit]
  exact Iff.rfl

/-- Every index of the output lies in the block of the point whose block coordinates are the index's coordinates
    divided by 1024, and that point writes back. -/
theorem tiled (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-! ## The output array, and the run -/

/-- THE OUTPUT ARRAY after the run is the kernel matrix of the two arguments. -/
theorem output_array (c : Dev nD) :
    (dats m 0 c).arrAt 4 cfg0.N
      = Cert.Rbf.rbf (m ((c : Thread nD τ).loc main_arg0)) (m ((c : Thread nD τ).loc main_arg1)) :=
  (dats m 0 c).arrAt_eq_of_cover 4 _ (fun t _ => written_back m c t) tiled

/-- THE KERNEL'S RUN: every weakly fair execution terminates with the result buffer at the kernel matrix of the two
    arguments, and the arguments unchanged. -/
theorem run : θ_run defs (onTc (τ := τ) (main (F := Ideal))) ⟨m, fun _ => 0, ρ⟩ fun r => ∀ c : Dev nD,
      r.2.mem ((c : Thread nD τ).loc main_v7)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_array m c), (h c).2⟩)
    (Cert.KernelIdeal.Value.run_blocks m ρ)

end Cert.Rbf.Kernel

end
-- ==== Proof.lean ====
/-
  A tiled radial-basis-function kernel matrix against its plain formula.

  For two arrays `x`, `y` of 8192 rows of length 64, both programs produce the 8192 × 8192 matrix whose entry at
  `(r, s)` is `exp (-(‖x r‖² + ‖y s‖² - 2 ⟨x r, y s⟩)⁺)`: the squared distance of the two rows, expanded into the two
  squared norms and the inner product, clamped below at zero. The reference forms the two vectors of squared norms
  and the full matrix of inner products, and combines them by broadcasting. The kernel forms the squared norms
  outside the grid as a column and a row, and on an 8 × 8 grid computes one 1024 × 1024 tile per point: the inner
  products of 1024 rows of `x` with 1024 rows of `y` by a matrix product, then the same combination.

  On the extended reals the two are the same function with no algebra in between: the same three literals at the
  same places, the same grouping `(a + b) - 2 · g`, the matrix product into a zero accumulator and the reference's
  contraction both the sum of the 64 products, and a change of tiling or of where a norm is broadcast changes no
  entry. So no finiteness of the inputs is used. The idealized kernel is the kernel's own text read on the extended
  reals, so nothing is owed for the idealization.

  `Cert.Rbf.rbf` (Spec) is that matrix as one function; the reference's last stage is it (RefIsRbf); the body's stored
  tile is it entry by entry (BodyEntry, with the two norm arrays read in NormArrays); and the tiles cover the output
  (KernelIsRbf). The three frames are the generated ones, the reference's being its run with the result dropped.
-/
import proofs.«171659_j65481071396156_2_alg».proof.Defs
import proofs.«171659_j65481071396156_2_alg».proof.Proof.Gen.Kernel
import proofs.«171659_j65481071396156_2_alg».proof.Proof.Gen.Kernel.Frame
import proofs.«171659_j65481071396156_2_alg».proof.Proof.Gen.KernelIdeal
import proofs.«171659_j65481071396156_2_alg».proof.Proof.Gen.KernelIdeal.Frame
import proofs.«171659_j65481071396156_2_alg».proof.Proof.Gen.KernelIdeal.Value
import proofs.«171659_j65481071396156_2_alg».proof.Proof.Gen.ReferenceIdeal
import proofs.«171659_j65481071396156_2_alg».proof.Proof.Gen.ReferenceIdeal.Run
import proofs.«171659_j65481071396156_2_alg».proof.Proof.Gen.ReferenceIdeal.Read
import proofs.«171659_j65481071396156_2_alg».proof.Proof.Gen.Pre_finite_inputs
import proofs.«171659_j65481071396156_2_alg».proof.Proof.Spec
import proofs.«171659_j65481071396156_2_alg».proof.Proof.RefIsRbf
import proofs.«171659_j65481071396156_2_alg».proof.Proof.KernelIsRbf

noncomputable section

namespace Cert.Proof

open Idealize.ShloMosaic Idealize.ShloMosaic.TcCoe Idealize.SL.Sem

/-- The kernel as printed runs and leaves its arguments as they were. -/
theorem frame_kernel [Cert.Pre_finite_inputs.Facts] : Cert.frame_Kernel (hKernel := Cert.Kernel.Gen.facts) :=
  fun m ρ _ => Cert.Kernel.Gen.frame m ρ

/-- So does the idealized kernel. -/
theorem frame_kernel_ideal [Cert.Pre_finite_inputs.Facts] :
    Cert.frame_KernelIdeal (hKernelIdeal := Cert.KernelIdeal.Gen.facts) :=
  fun m ρ _ => Cert.KernelIdeal.Gen.frame m ρ

/-- The reference has no kernel: its frame is its run, the result forgotten. -/
theorem frame_reference_ideal [Cert.Pre_finite_inputs.Facts] :
    Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- Both idealized programs end with the kernel matrix of their arguments, and the arguments agree. -/
theorem algebraic [Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' _ hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Rbf.Ref.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
